-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel

variable [Facts]

def fn {F : FTy → Type} [FloatOps F] (main_arg0 : FVec F S1048576x10 .f32) (main_arg1 : FVec F S1048576x10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S1048576x10 .f32 := Host.absf main_arg1
  let main_cst_0 : FVec F S_ .f32 := constant S_ .f32 0x7F800000#32
  let main_v5 : FVec F S1048576x10 .f32 := broadcastInDim S1048576x10 ![] bcast_S_S1048576x10 main_cst_0
  let main_v6 : IVec S1048576x10 1 := cmpf .olt main_v4 main_v5
  let main_c_1 : IVec S_ 1 := constantI S_ 1 1#1
  let main_v7 : IVec S_ 1 := (fun x v => Host.reduce IntOp.andi x v reducesTo_S1048576x10_S_d0_1 h_S_) main_v6 main_c_1
  let main_v8 : IVec S_ 1 := andi main_v3 main_v7
  main_v8
-- ==== Kernel.lean ====
abbrev S1048576x10 : Shape := ⟨2, ![1048576, 10]⟩
abbrev S1048576x19 : Shape := ⟨2, ![1048576, 19]⟩
abbrev S8192x10 : Shape := ⟨2, ![8192, 10]⟩
abbrev S8192x19 : Shape := ⟨2, ![8192, 19]⟩
abbrev S10x8192 : Shape := ⟨2, ![10, 8192]⟩
abbrev S9x8192 : Shape := ⟨2, ![9, 8192]⟩
abbrev S28x8192 : Shape := ⟨2, ![28, 8192]⟩
abbrev S1x8192 : Shape := ⟨2, ![1, 8192]⟩
abbrev S19x8192 : Shape := ⟨2, ![19, 8192]⟩
abbrev S8192 : Shape := ⟨1, ![8192]⟩

abbrev nBuf : Space → Nat
  | .hbm => 3
  | .vmem => 6
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S1048576x19, .f32⟩
  | .local _ .vmem, ⟨0, _⟩ => ⟨S8192x10, .f32⟩
  | .local _ .vmem, ⟨1, _⟩ => ⟨S8192x10, .f32⟩
  | .local _ .vmem, ⟨2, _⟩ => ⟨S8192x10, .f32⟩
  | .local _ .vmem, ⟨3, _⟩ => ⟨S8192x10, .f32⟩
  | .local _ .vmem, ⟨4, _⟩ => ⟨S8192x19, .f32⟩
  | .local _ .vmem, ⟨5, _⟩ => ⟨S8192x19, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x10_S8192x10_0_0 : ∀ a, (![0, 0] : Fin 2 → Nat) a + S8192x10.size a ≤ S8192x10.size a
  h_S8192x10 : 0 < S8192x10.numel
  transposes_S8192x10_p1_0_S10x8192 : S8192x10.Transposes [1, 0] S10x8192
  concatenates_S9x8192_S10x8192_S9x8192_S28x8192_d0 : Shape.Concatenates [S9x8192, S10x8192, S9x8192] S28x8192 0
  slices_S10x8192_o0_0_S1x8192 : S10x8192.Slices ![0, 0] S1x8192
  slices_S28x8192_o9_0_S19x8192 : S28x8192.Slices ![9, 0] S19x8192
  broadcasts_S1x8192_S19x8192 : S1x8192.Broadcasts S19x8192
  slices_S10x8192_o1_0_S1x8192 : S10x8192.Slices ![1, 0] S1x8192
  slices_S28x8192_o8_0_S19x8192 : S28x8192.Slices ![8, 0] S19x8192
  slices_S10x8192_o2_0_S1x8192 : S10x8192.Slices ![2, 0] S1x8192
  slices_S28x8192_o7_0_S19x8192 : S28x8192.Slices ![7, 0] S19x8192
  slices_S10x8192_o3_0_S1x8192 : S10x8192.Slices ![3, 0] S1x8192
  slices_S28x8192_o6_0_S19x8192 : S28x8192.Slices ![6, 0] S19x8192
  slices_S10x8192_o4_0_S1x8192 : S10x8192.Slices ![4, 0] S1x8192
  slices_S28x8192_o5_0_S19x8192 : S28x8192.Slices ![5, 0] S19x8192
  slices_S10x8192_o5_0_S1x8192 : S10x8192.Slices ![5, 0] S1x8192
  slices_S28x8192_o4_0_S19x8192 : S28x8192.Slices ![4, 0] S19x8192
  slices_S10x8192_o6_0_S1x8192 : S10x8192.Slices ![6, 0] S1x8192
  slices_S28x8192_o3_0_S19x8192 : S28x8192.Slices ![3, 0] S19x8192
  slices_S10x8192_o7_0_S1x8192 : S10x8192.Slices ![7, 0] S1x8192
  slices_S28x8192_o2_0_S19x8192 : S28x8192.Slices ![2, 0] S19x8192
  slices_S10x8192_o8_0_S1x8192 : S10x8192.Slices ![8, 0] S1x8192
  slices_S28x8192_o1_0_S19x8192 : S28x8192.Slices ![1, 0] S19x8192
  slices_S10x8192_o9_0_S1x8192 : S10x8192.Slices ![9, 0] S1x8192
  slices_S28x8192_o0_0_S19x8192 : S28x8192.Slices ![0, 0] S19x8192
  reduces_S19x8192_S8192 : S19x8192.Reduces [0] S8192
  shapeCasts_S8192_S1x8192 : S8192.ShapeCasts S1x8192
  transposes_S19x8192_p1_0_S8192x19 : S19x8192.Transposes [1, 0] S8192x19
  inb_S8192x19_S8192x19_0_0 : ∀ a, (![0, 0] : Fin 2 → Nat) a + S8192x19.size a ≤ S8192x19.size a
  h_S8192x19 : 0 < S8192x19.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S1048576x10.size a
  hwx0_0 : ∀ i : grid0.Coords, EltTy.bits .f32 = 32 ∨ (Rect.block (s := S1048576x10) S8192x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x10.size a ≤ S1048576x10.size a
  hwx0_1 : ∀ i : grid0.Coords, EltTy.bits .f32 = 32 ∨ (Rect.block (s := S1048576x10) S8192x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x19.size a ≤ S1048576x19.size a
  hwx0_2 : ∀ i : grid0.Coords, EltTy.bits .f32 = 32 ∨ (Rect.block (s := S1048576x19) S8192x19.size (cc0_transform_2 i) (hinb0_2 i)).WholeWords (EltTy.packing .f32)

variable [Facts₀]

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S1048576x10x1 : Shape := ⟨3, ![1048576, 10, 1]⟩
abbrev S1048576x1x10 : Shape := ⟨3, ![1048576, 1, 10]⟩
abbrev S1048576x10x10 : Shape := ⟨3, ![1048576, 10, 10]⟩
abbrev S1048576x100 : Shape := ⟨2, ![1048576, 100]⟩
abbrev S10 : Shape := ⟨1, ![10]⟩
abbrev S10x1 : Shape := ⟨2, ![10, 1]⟩
abbrev S1x10 : Shape := ⟨2, ![1, 10]⟩
abbrev S10x10 : Shape := ⟨2, ![10, 10]⟩
abbrev S100 : Shape := ⟨1, ![100]⟩
abbrev S100x1 : Shape := ⟨2, ![100, 1]⟩
abbrev S19 : Shape := ⟨1, ![19]⟩
abbrev S1x19 : Shape := ⟨2, ![1, 19]⟩
abbrev S100x19 : Shape := ⟨2, ![100, 19]⟩
abbrev S1048576x19 : Shape := ⟨2, ![1048576, 19]⟩
abbrev S_ : Shape := ⟨0, ![]⟩
abbrev S1048576 : Shape := ⟨1, ![1048576]⟩
abbrev S1048576x1 : Shape := ⟨2, ![1048576, 1]⟩

abbrev nBuf : Space → Nat
  | .hbm => 32
  | .vmem => 0
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S1048576x10x1, .f32⟩
  | .hbm, ⟨3, _⟩ => ⟨S1048576x1x10, .f32⟩
  | .hbm, ⟨4, _⟩ => ⟨S1048576x10x10, .f32⟩
  | .hbm, ⟨5, _⟩ => ⟨S1048576x10x10, .f32⟩
  | .hbm, ⟨6, _⟩ => ⟨S1048576x10x10, .f32⟩
  | .hbm, ⟨7, _⟩ => ⟨S1048576x100, .f32⟩
  | .hbm, ⟨8, _⟩ => ⟨S10, .i32⟩
  | .hbm, ⟨9, _⟩ => ⟨S10x1, .i32⟩
  | .hbm, ⟨10, _⟩ => ⟨S10, .i32⟩
  | .hbm, ⟨11, _⟩ => ⟨S1x10, .i32⟩
  | .hbm, ⟨12, _⟩ => ⟨S10x10, .i32⟩
  | .hbm, ⟨13, _⟩ => ⟨S10x10, .i32⟩
  | .hbm, ⟨14, _⟩ => ⟨S10x10, .i32⟩
  | .hbm, ⟨15, _⟩ => ⟨S100, .i32⟩
  | .hbm, ⟨16, _⟩ => ⟨S100x1, .i32⟩
  | .hbm, ⟨17, _⟩ => ⟨S19, .i32⟩
  | .hbm, ⟨18, _⟩ => ⟨S1x19, .i32⟩
  | .hbm, ⟨19, _⟩ => ⟨S100x19, .i32⟩
  | .hbm, ⟨20, _⟩ => ⟨S100x19, .i32⟩
  | .hbm, ⟨21, _⟩ => ⟨S100x19, .i1⟩
  | .hbm, ⟨22, _⟩ => ⟨S100x19, .f32⟩
  | .hbm, ⟨23, _⟩ => ⟨S1048576x19, .f32⟩
  | .hbm, ⟨24, _⟩ => ⟨S_, .f32⟩
  | .hbm, ⟨25, _⟩ => ⟨S1048576, .f32⟩
  | .hbm, ⟨26, _⟩ => ⟨S1048576x1, .f32⟩
  | .hbm, ⟨27, _⟩ => ⟨S_, .f32⟩
  | .hbm, ⟨28, _⟩ => ⟨S1048576x1, .f32⟩
  | .hbm, ⟨29, _⟩ => ⟨S1048576x1, .f32⟩
  | .hbm, ⟨30, _⟩ => ⟨S1048576x19, .f32⟩
  | .hbm, ⟨31, _⟩ => ⟨S1048576x19, .f32⟩
  | _, _ => ⟨S1048576x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  bcast_S1048576x10_S1048576x10x1_0_1 : S1048576x10.BroadcastsInDim S1048576x10x1 (![0, 1] : Fin 2 → Fin S1048576x10x1.rank)
  bcast_S1048576x10_S1048576x1x10_0_2 : S1048576x10.BroadcastsInDim S1048576x1x10 (![0, 2] : Fin 2 → Fin S1048576x1x10.rank)
  bcast_S1048576x10x1_S1048576x10x10_0_1_2 : S1048576x10x1.BroadcastsInDim S1048576x10x10 (![0, 1, 2] : Fin 3 → Fin S1048576x10x10.rank)
  bcast_S1048576x1x10_S1048576x10x10_0_1_2 : S1048576x1x10.BroadcastsInDim S1048576x10x10 (![0, 1, 2] : Fin 3 → Fin S1048576x10x10.rank)
  shapeCasts_S1048576x10x10_S1048576x100 : S1048576x10x10.ShapeCasts S1048576x100
  bcast_S10_S10x1_0 : S10.BroadcastsInDim S10x1 (![0] : Fin 1 → Fin S10x1.rank)
  bcast_S10_S1x10_1 : S10.BroadcastsInDim S1x10 (![1] : Fin 1 → Fin S1x10.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  shapeCasts_S10x10_S100 : S10x10.ShapeCasts S100
  bcast_S100_S100x1_0 : S100.BroadcastsInDim S100x1 (![0] : Fin 1 → Fin S100x1.rank)
  bcast_S19_S1x19_1 : S19.BroadcastsInDim S1x19 (![1] : Fin 1 → Fin S1x19.rank)
  bcast_S100x1_S100x19_0_1 : S100x1.BroadcastsInDim S100x19 (![0, 1] : Fin 2 → Fin S100x19.rank)
  bcast_S1x19_S100x19_0_1 : S1x19.BroadcastsInDim S100x19 (![0, 1] : Fin 2 → Fin S100x19.rank)
  reducesTo_S1048576x19_S1048576_d1 : S1048576x19.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x19_0_1 : S1048576x1.BroadcastsInDim S1048576x19 (![0, 1] : Fin 2 → Fin S1048576x19.rank)
  dot_S1048576x100_S100x19_S1048576x19_1_0_0_1_n_n_wf : DotDims.WF S1048576x100 S100x19 S1048576x19 [1] [0] [0] [1] [] []

variable [Facts₀]

def dot_S1048576x100_S100x19_S1048576x19_1_0_0_1_n_n : DotDims S1048576x100 S100x19 S1048576x19 where
  lhsContracting := [1]
  rhsContracting := [0]
  lhsNonContracting := [0]
  rhsNonContracting := [1]
  lhsBatch := []
  rhsBatch := []
  wf := dot_S1048576x100_S100x19_S1048576x19_1_0_0_1_n_n_wf

class Facts : Prop extends Facts₀ where

variable [Facts]
-- ==== Proof.DigitSumSpec.lean ====
/-
  The function both programs compute, and the one law between their two arrangements of it.

  A row of the first argument is a list `a` of ten extended reals, a row of the second a list `b` of ten.
  The un-normalised weight of the digit sum `k` (0 ≤ k ≤ 18) is the convolution
      digitConv a b k = ∑ i, a i · b (k − i)        (terms with k − i outside 0..9 absent),
  and the result is digitConv a b k divided by (∑ k', digitConv a b k') + ε, ε the binary32 number nearest 1e-9.

  One program lays `b` on 28 places with nine zeros on either side (`padRow`) and adds, for each `i`, `a i` times
  the 19 places that start at 9 − i. The other forms all hundred products a (q / 10) · b (q % 10) and adds those
  whose two digits sum to `k`, by multiplying each with 1 or 0. Splitting q into its two digits, the inner sum
  over the second digit keeps exactly the place k − i when it is a digit and nothing otherwise: that is
  `masked_sum_eq_digitConv`. Only x · 1 = x, x · 0 = 0 and the commutative monoid laws of + are used, which hold for
  every extended real, so no finiteness is needed.
-/
import Idealize.ShloMosaic.PureOps.Ideal
import Idealize.ShloMosaic.Lib.ValueIdx
import Mathlib.Algebra.BigOperators.Fin
import Mathlib.Logic.Equiv.Fin.Basic

noncomputable section

namespace Cert.DigitSum

open Idealize.ShloMosaic Idealize.ShloMosaic.ValueIdx

/-- The second row on 28 places, nine zeros before it and nine after: place `s` holds `b (s − 9)` for
    9 ≤ s < 19 and zero elsewhere. -/
def padRow (b : Fin 10 → EReal) (s : ℕ) : EReal :=
  if h : 9 ≤ s ∧ s < 19 then b ⟨s - 9, by omega⟩ else 0

/-- The un-normalised weight of digit sum `k`: `a i` meets the padded place 9 − i + k, which is `b (k − i)`
    when that is a digit and zero otherwise. -/
def digitConv (a b : Fin 10 → EReal) (k : ℕ) : EReal := ∑ i : Fin 10, a i * padRow b (9 - i.val + k)

/-- The binary32 number nearest 1e-9, as both programs spell it. -/
def eps : EReal := Ideal.ofBits .f32 0x3089705F#32

/-- The weight of digit sum `k` over the total of the nineteen weights plus ε. -/
def share (a b : Fin 10 → EReal) (k : ℕ) : EReal :=
  Ideal.div (digitConv a b k) ((∑ k' : Fin 19, digitConv a b k'.val) + eps)

/-- Row `r` of a [1048576, 10] array. -/
def rowOf (A : (⟨2, ![1048576, 10]⟩ : Shape).Idx → EReal) (r : Fin 1048576) : Fin 10 → EReal := fun d => A (ix2 r d)

/-- The whole result: entry (r, k) is the normalised weight of digit sum `k` for rows `r` of the two arguments. -/
def G (A B : (⟨2, ![1048576, 10]⟩ : Shape).Idx → EReal) : (⟨2, ![1048576, 19]⟩ : Shape).Idx → EReal :=
  fun i => share (rowOf A ⟨(i 0).val, (i 0).isLt⟩) (rowOf B ⟨(i 0).val, (i 0).isLt⟩) (i 1).val

theorem G_ix2 (A B : (⟨2, ![1048576, 10]⟩ : Shape).Idx → EReal) (r : Fin 1048576) (k : Fin 19) :
    G A B (ix2 r k) = share (rowOf A r) (rowOf B r) k.val := rfl

/-- A sum over ten places, written out from the left. -/
theorem sum_fin10 {M : Type*} [AddCommMonoid M] (f : Fin 10 → M) :
    ∑ i, f i = f ⟨0, by decide⟩ + f ⟨1, by decide⟩ + f ⟨2, by decide⟩ + f ⟨3, by decide⟩ + f ⟨4, by decide⟩
      + f ⟨5, by decide⟩ + f ⟨6, by decide⟩ + f ⟨7, by decide⟩ + f ⟨8, by decide⟩ + f ⟨9, by decide⟩ := by
  rw [Fin.sum_univ_castSucc, Fin.sum_univ_castSucc, Fin.sum_univ_eight]; rfl

/-- The convolution written out: ten products added from the left, `a i` against the padded place 9 − i + k. -/
theorem digitConv_eq (a b : Fin 10 → EReal) (k : ℕ) :
    digitConv a b k = a ⟨0, by decide⟩ * padRow b (9 + k) + a ⟨1, by decide⟩ * padRow b (8 + k) + a ⟨2, by decide⟩ * padRow b (7 + k)
      + a ⟨3, by decide⟩ * padRow b (6 + k) + a ⟨4, by decide⟩ * padRow b (5 + k) + a ⟨5, by decide⟩ * padRow b (4 + k)
      + a ⟨6, by decide⟩ * padRow b (3 + k) + a ⟨7, by decide⟩ * padRow b (2 + k) + a ⟨8, by decide⟩ * padRow b (1 + k)
      + a ⟨9, by decide⟩ * padRow b (0 + k) := by
  unfold digitConv
  rw [sum_fin10]
  rfl

/-- For a fixed first digit `i`: among the ten products a i · b j, those with i + j = k add up to `a i` times
    the padded place 9 − i + k. -/
theorem inner_sum (a b : Fin 10 → EReal) (k : ℕ) (i : Fin 10) :
    ∑ j : Fin 10, (a i * b j) * (if i.val + j.val = k then (1 : EReal) else 0) = a i * padRow b (9 - i.val + k) := by
  have hi : i.val < 10 := i.isLt
  by_cases hk : i.val ≤ k ∧ k < i.val + 10
  · have hj0 : k - i.val < 10 := by omega
    rw [Finset.sum_eq_single (⟨k - i.val, hj0⟩ : Fin 10)]
    · have e1 : i.val + (⟨k - i.val, hj0⟩ : Fin 10).val = k := by show i.val + (k - i.val) = k; omega
      rw [if_pos e1, mul_one]
      unfold padRow
      rw [dif_pos (by omega : 9 ≤ 9 - i.val + k ∧ 9 - i.val + k < 19)]
      exact congrArg (fun x => a i * b x) (Fin.ext (by show k - i.val = 9 - i.val + k - 9; omega))
    · intro j _ hne
      have : ¬ i.val + j.val = k := fun h => hne (Fin.ext (by show j.val = k - i.val; omega))
      rw [if_neg this, mul_zero]
    · intro h; exact absurd (Finset.mem_univ _) h
  · have hz : ∀ j : Fin 10, (a i * b j) * (if i.val + j.val = k then (1 : EReal) else 0) = 0 := fun j => by
      have hj : j.val < 10 := j.isLt
      rw [if_neg (by omega), mul_zero]
    rw [Finset.sum_congr rfl (fun j _ => hz j), Finset.sum_const_zero]
    unfold padRow
    rw [dif_neg (by omega), mul_zero]

/-- The hundred products a (q / 10) · b (q % 10), each kept (times 1) when its two digits sum to `k` and dropped
    (times 0) otherwise, add up to the convolution at `k`. -/
theorem masked_sum_eq_digitConv (a b : Fin 10 → EReal) (k : ℕ) :
    ∑ q : Fin 100, (a ⟨q.val / 10, by have := q.isLt; omega⟩ * b ⟨q.val % 10, by omega⟩)
        * (if q.val / 10 + q.val % 10 = k then (1 : EReal) else 0) = digitConv a b k := by
  have e := (Fintype.sum_equiv (finProdFinEquiv : Fin 10 × Fin 10 ≃ Fin 100)
    (fun p : Fin 10 × Fin 10 => (a p.1 * b p.2) * (if p.1.val + p.2.val = k then (1 : EReal) else 0))
    (fun q : Fin 100 => (a ⟨q.val / 10, by have := q.isLt; omega⟩ * b ⟨q.val % 10, by omega⟩)
        * (if q.val / 10 + q.val % 10 = k then (1 : EReal) else 0))
    (fun p => by
      have h1 : p.1.val < 10 := p.1.isLt
      have h2 : p.2.val < 10 := p.2.isLt
      have hv : (finProdFinEquiv p : Fin (10 * 10)).val = p.2.val + 10 * p.1.val := rfl
      have d1 : (p.2.val + 10 * p.1.val) / 10 = p.1.val := by omega
      have d2 : (p.2.val + 10 * p.1.val) % 10 = p.2.val := by omega
      have f1 : (⟨(finProdFinEquiv p : Fin (10 * 10)).val / 10, by rw [hv]; omega⟩ : Fin 10) = p.1 := Fin.ext (by show _ / 10 = _; rw [hv, d1])
      have f2 : (⟨(finProdFinEquiv p : Fin (10 * 10)).val % 10, by omega⟩ : Fin 10) = p.2 := Fin.ext (by show _ % 10 = _; rw [hv, d2])
      show _ = (a ⟨(finProdFinEquiv p : Fin (10 * 10)).val / 10, _⟩ * b ⟨(finProdFinEquiv p : Fin (10 * 10)).val % 10, _⟩)
        * (if (finProdFinEquiv p : Fin (10 * 10)).val / 10 + (finProdFinEquiv p : Fin (10 * 10)).val % 10 = k then (1 : EReal) else 0)
      rw [f1, f2, hv, d1, d2]))
  rw [← e, Fintype.sum_prod_type]
  unfold digitConv
  exact Finset.sum_congr rfl fun i _ => inner_sum a b k i

end Cert.DigitSum

end
-- ==== Proof.KernelPieces.lean ====
/-
  The kernel body's pieces read at an index, at the exact values.

  The body turns its two [8192, 10] blocks on their side (ten rows of 8192 lanes, one lane per batch row), lays the
  second between nine rows of zeros above and nine below (28 rows), and for each digit `i` multiplies row `i` of the
  first, repeated over nineteen rows, with the nineteen rows of the padded block that start at row 9 − i. Lane `b` of
  row `s` of the padded block is the padded place `s` of row `b` of the second block (`padded_apply`), so each such
  product, at row `k` and lane `b`, is `x0 (b, i) · padRow (row b of x1) (9 − i + k)` (`product_apply`).
-/
import proofs.«112194_j52192442581033_2_alg».proof.Proof.Gen.KernelIdeal.Skeleton
import proofs.«112194_j52192442581033_2_alg».proof.Proof.DigitSumSpec
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.DigitSum

/-- Row `b` of an [8192, 10] block. -/
def blockRow (x : FVec Ideal S8192x10 .f32) (b : Fin 8192) : Fin 10 → EReal := fun d => x (ix2 b d)

/-- The block on its side: row `d`, lane `b` is entry (b, d). -/
theorem sideways_apply (x : FVec Ideal S8192x10 .f32) (d : Fin 10) (b : Fin 8192) :
    k0_pay2 (F := Ideal) x (ix2 d b) = x (ix2 b d) := by
  unfold k0_pay2
  exact transpose_ix2_apply x _ d b

/-- The three pieces laid one above the other: nine rows of zeros, the block on its side, nine rows of zeros. -/
abbrev paddedPieces (x1 : FVec Ideal S8192x10 .f32) : List ((s : Shape) × (s.Idx → Ideal .f32)) :=
  [⟨S9x8192, broadcast S9x8192 (Scalar.ofBits .f32 0x00000000#32)⟩,
   ⟨S10x8192, transpose S10x8192 [1, 0] x1 transposes_S8192x10_p1_0_S10x8192⟩,
   ⟨S9x8192, broadcast S9x8192 (Scalar.ofBits .f32 0x00000000#32)⟩]

/-- The padded block: row `s`, lane `b` is the padded place `s` of row `b` — zero in the nine rows above and the
    nine below, entry (b, s − 9) between. -/
theorem padded_apply (x1 : FVec Ideal S8192x10 .f32) (s : Fin 28) (b : Fin 8192) :
    k0_pay3 (F := Ideal) x1 (ix2 s b) = padRow (blockRow x1 b) s.val := by
  have hs : s.val < 28 := s.isLt
  unfold k0_pay3
  by_cases h1 : s.val < 9
  · refine (concatenate_apply_piece (t := S28x8192) (0 : Fin 2) (paddedPieces x1) concatenates_S9x8192_S10x8192_S9x8192_S28x8192_d0 (ix2 s b)
      0 (by show 0 < 3; omega) S9x8192 _ rfl rfl 0 rfl (ix2 (⟨s.val, h1⟩ : Fin 9) b) ?_ ?_).trans ?_
    · intro a ha
      match a with
      | ⟨0, _⟩ => exact absurd rfl ha
      | ⟨1, _⟩ => rfl
    · show 0 + s.val = s.val; omega
    · unfold padRow
      rw [dif_neg (by omega)]
      exact Ideal.ofBits_zero_f32
  · by_cases h2 : s.val < 19
    · refine (concatenate_apply_piece (t := S28x8192) (0 : Fin 2) (paddedPieces x1) concatenates_S9x8192_S10x8192_S9x8192_S28x8192_d0 (ix2 s b)
        1 (by show 1 < 3; omega) S10x8192 _ rfl rfl 9 rfl (ix2 (⟨s.val - 9, by omega⟩ : Fin 10) b) ?_ ?_).trans ?_
      · intro a ha
        match a with
        | ⟨0, _⟩ => exact absurd rfl ha
        | ⟨1, _⟩ => rfl
      · show 9 + (s.val - 9) = s.val; omega
      · unfold padRow
        rw [dif_pos (by omega : 9 ≤ s.val ∧ s.val < 19)]
        exact transpose_ix2_apply x1 _ _ b
    · refine (concatenate_apply_piece (t := S28x8192) (0 : Fin 2) (paddedPieces x1) concatenates_S9x8192_S10x8192_S9x8192_S28x8192_d0 (ix2 s b)
        2 (by show 2 < 3; omega) S9x8192 _ rfl rfl 19 rfl (ix2 (⟨s.val - 19, by omega⟩ : Fin 9) b) ?_ ?_).trans ?_
      · intro a ha
        match a with
        | ⟨0, _⟩ => exact absurd rfl ha
        | ⟨1, _⟩ => rfl
      · show 19 + (s.val - 19) = s.val; omega
      · unfold padRow
        rw [dif_neg (by omega)]
        exact Ideal.ofBits_zero_f32

/-- One of the ten products, at row `k` and lane `b`: row `o` of the first block on its side, repeated over nineteen
    rows, times the nineteen rows of the padded block from row `o'` on. -/
theorem product_apply (x0 x1 : FVec Ideal S8192x10 .f32) (o o' : ℕ)
    (h1 : S10x8192.Slices ![o, 0] S1x8192) (h2 : S28x8192.Slices ![o', 0] S19x8192) (k : Fin 19) (b : Fin 8192) :
    mulf (broadcastTo S19x8192 (extractStridedSlice S1x8192 ![o, 0] (k0_pay2 (F := Ideal) x0) h1) broadcasts_S1x8192_S19x8192)
        (extractStridedSlice S19x8192 ![o', 0] (k0_pay3 (F := Ideal) x1) h2) (ix2 k b)
      = x0 (ix2 b ⟨o, h1.2 0⟩) * padRow (blockRow x1 b) (o' + k.val) := by
  refine (mulf_apply _ _ _).trans ?_
  refine congrArg₂ (fun u v : EReal => u * v) ?_ ?_
  · refine (broadcastTo_1b_ab_apply _ _ k b).trans ?_
    refine (slice2_axis0_apply o _ h1 (0 : Fin 1) b ⟨o, h1.2 0⟩ rfl).trans ?_
    exact sideways_apply x0 ⟨o, h1.2 0⟩ b
  · refine (slice2_axis0_eq o' _ h2 k b).trans ?_
    exact padded_apply x1 _ b

end Cert.KernelIdeal.Body

end
-- ==== Proof.KernelBlock.lean ====
/-
  What the kernel body stores, read at an index, at the exact values.

  The ten products are added from the left into a [19, 8192] array whose row `k`, lane `b` is the convolution of
  rows `b` of the two blocks at `k` (`weights_apply`). The body sums that array over its nineteen rows (a sum
  over the row coordinate, `rows_sum`), adds ε, repeats the result over the nineteen rows, divides, and turns the
  quotient back to [8192, 19]: entry (b, k) of what it stores is `share` of rows `b` at `k` (`stored_apply`).
-/
import proofs.«112194_j52192442581033_2_alg».proof.Proof.KernelPieces

noncomputable section

namespace Cert.KernelIdeal.Body

open Cert.KernelIdeal Cert.KernelIdeal.Gen Idealize.ShloMosaic Idealize.ShloMosaic.ValueIdx Cert.DigitSum

/-- The ten products added from the left: row `k`, lane `b` is the convolution of rows `b` at `k`. -/
theorem weights_apply (x0 x1 : FVec Ideal S8192x10 .f32) (k : Fin 19) (b : Fin 8192) :
    addf (k0_pay4 (F := Ideal) x0 x1) (k0_pay5 (F := Ideal) x0 x1) (ix2 k b)
      = digitConv (blockRow x0 b) (blockRow x1 b) k.val := by
  rw [digitConv_eq]
  unfold k0_pay4 k0_pay5
  simp only [addf_apply, product_apply]
  rfl

/-- The reduced lane `b` with the row coordinate `k` put back is (k, b). -/
theorem lift_rows (b : Fin 8192) (k : Fin (S19x8192.size 0)) :
    reduces_S19x8192_S8192.lift (ix1 b) k = ix2 (⟨k.val, k.isLt⟩ : Fin 19) b := by
  funext c; apply Fin.ext
  fin_cases c <;> rfl

/-- The sum over the nineteen rows, from zero, at lane `b`. -/
theorem rows_sum (v : FVec Ideal S19x8192 .f32) (b : Fin 8192) :
    multiReduction .add [0] S8192 v 0x00000000#32 reduces_S19x8192_S8192 (.inl rfl) rfl (ix1 b)
      = ∑ k : Fin 19, v (ix2 k b) := by
  refine (Ideal.multiReduction_add_single v 0x00000000#32 reduces_S19x8192_S8192 (.inl rfl) rfl (ix1 b)).trans ?_
  exact Finset.sum_congr rfl fun k _ => congrArg v (lift_rows b k)

/-- Entry (b, k) of what the body stores: the convolution of rows `b` at `k` over the total of the nineteen plus ε. -/
theorem stored_apply (x0 x1 : FVec Ideal S8192x10 .f32) (b : Fin 8192) (k : Fin 19) :
    k0_pay1 (F := Ideal) (k0_pay4 x0 x1) (k0_pay5 x0 x1) (ix2 b k) = share (blockRow x0 b) (blockRow x1 b) k.val := by
  unfold k0_pay1
  refine (transpose_ix2_apply _ _ b k).trans ?_
  refine (divf_apply _ _ _).trans ?_
  unfold share
  refine congrArg₂ Ideal.div (weights_apply x0 x1 k b) ?_
  refine (broadcastTo_1b_ab_apply _ _ k b).trans ?_
  refine (addf_apply _ _ _).trans ?_
  refine congrArg₂ (fun u v : EReal => u + v) ?_ rfl
  refine (shapeCast_a_1a_apply _ _ (0 : Fin 1) b).trans ?_
  refine (rows_sum _ b).trans ?_
  exact Finset.sum_congr rfl fun k' _ => weights_apply x0 x1 k' b

end Cert.KernelIdeal.Body

end
-- ==== Proof.KernelArray.lean ====
/-
  From blocks to the whole output array, at the exact values.

  Grid point `t` works on rows 8192·t … 8192·t + 8191 of both arguments and of the result, all ten (or nineteen)
  columns: every window's block index is (t, 0). What point `t` writes back is therefore block `t` of the
  whole-array function `G` of the two argument arrays: row `p` of the block is row 8192·t + p of each array, and
  `stored_apply` says the stored entry is `share` of those rows. The 128 blocks cover every row (row `r` lies in
  block r / 8192), so after the run the result array is `G` of the arguments.
-/
import proofs.«112194_j52192442581033_2_alg».proof.Proof.Gen.KernelIdeal.Value
import proofs.«112194_j52192442581033_2_alg».proof.Proof.KernelBlock

noncomputable section

namespace Cert.KernelIdeal.Whole

open Cert.KernelIdeal Cert.KernelIdeal.Gen Cert.KernelIdeal.Body Idealize.ShloMosaic Idealize.ShloMosaic.TcCoe Idealize.SL.Sem
  Idealize.ShloMosaic.ValueIdx Cert.DigitSum
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The three index maps, decided over the 128 grid points: every window's block index at point `t` is (t, 0). -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 127 :=
  (by decide +kernel : ∀ t : Fin grid0.N, _)

/-- Every block row 0 … 127 is some point's. -/
theorem index_onto : ∀ q : Fin 128, ∃ t : Fin cfg0.N, win0_2.index t = ![q.val, 0] :=
  (by decide +kernel : ∀ q : Fin 128, ∃ t : Fin grid0.N, win0_2.index t = ![q.val, 0])

/-- `share` of two rows given entry by entry is `G` at the index, when the rows are the arrays' rows there. -/
theorem share_eq_G (A B : (⟨2, ![1048576, 10]⟩ : Shape).Idx → EReal) (i : (⟨2, ![1048576, 19]⟩ : Shape).Idx)
    (a b : Fin 10 → EReal) (k : ℕ)
    (ha : ∀ d, a d = A (ix2 (⟨(i 0).val, (i 0).isLt⟩ : Fin 1048576) d))
    (hb : ∀ d, b d = B (ix2 (⟨(i 0).val, (i 0).isLt⟩ : Fin 1048576) d)) (hk : k = (i 1).val) :
    share a b k = G A B i := by
  obtain rfl : a = rowOf A ⟨(i 0).val, (i 0).isLt⟩ := funext ha
  obtain rfl : b = rowOf B ⟨(i 0).val, (i 0).isLt⟩ := funext hb
  subst hk
  rfl

/-- What point `t` writes back is block `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  rw [Value.flushed2]
  unfold out0_2
  rw [View.canon_unit_zero offsets_zero]
  simp only [View.ld_unit_zero (S := S8192x10) offsets_zero]
  obtain ⟨e0, e1, e2, e3, e4, e5⟩ := index_facts t
  funext j
  obtain ⟨p, q, rfl⟩ : ∃ (p : Fin 8192) (q : Fin 19), j = ix2 p q := ⟨j 0, j 1, eq_ix2 j⟩
  have hp : p.val < 8192 := p.isLt
  have hq : q.val < 19 := q.isLt
  show k0_pay1 (F := Ideal) (k0_pay4 (iblk m c 0 t) (iblk m c 1 t)) (k0_pay5 (iblk m c 0 t) (iblk m c 1 t)) (ix2 p q)
    = G (V m c main_arg0) (V m c main_arg1) (((cfg0.win 2).blk t).view.emb (ix2 p q))
  refine (stored_apply (iblk m c 0 t) (iblk m c 1 t) p q).trans ?_
  refine share_eq_G _ _ _ _ _ _ (fun d => ?_) (fun d => ?_) ?_
  · have hd : d.val < 10 := d.isLt
    show V m c main_arg0 (((cfg0.win 0).blk t).view.emb (ix2 p d)) = V m c main_arg0 (ix2 _ d)
    refine congrArg (V m c main_arg0) ?_
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 10 + 1 * d.val = d.val; omega
  · have hd : d.val < 10 := d.isLt
    show V m c main_arg1 (((cfg0.win 1).blk t).view.emb (ix2 p d)) = V m c main_arg1 (ix2 _ d)
    refine congrArg (V m c main_arg1) ?_
    funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 10 + 1 * d.val = d.val; omega
  · show q.val = win0_2.index t (1 : Fin 2) * 19 + 1 * q.val; omega

/-- An index of the result array is in point `t`'s block iff each coordinate is in the block's range on its axis. -/
theorem mem_block (t : Fin cfg0.N) (i : S1048576x19.Idx) :
    i ∈ ((cfg0.win 2).blk t).view.set ↔ ∀ a : Fin 2, win0_2.index t a * S8192x19.size a ≤ (i a).val ∧ (i a).val < win0_2.index t a * S8192x19.size a + S8192x19.size a := by
  show i ∈ ((View.whole main_v0).slice (win0_2.rect t)).set ↔ _
  rw [View.set_slice_whole, Rect.mem_set_unit]
  exact Iff.rfl

/-- Every index of the result array is in some point's block: row `r` in block r / 8192. -/
theorem covered (i : S1048576x19.Idx) :
    ∃ t : Fin cfg0.N, (cfg0.win 2).flush t = true ∧ i ∈ ((cfg0.win 2).blk t).view.set := by
  have hi0 : (i 0).val < 1048576 := (i 0).isLt
  have hi1 : (i 1).val < 19 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 19 ≤ (i 1).val ∧ (i 1).val < win0_2.index t (1 : Fin 2) * 19 + 19; omega

/-- The result array after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The kernel's run with the result array read: `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceValue.lean ====
/-
  The reference's result is the function `G` of its two arguments.

  The reference forms, for each batch row, the hundred products p1[i] · p2[j] laid out at q = 10·i + j, and a 0/1
  matrix whose entry (q, k) is 1 exactly when the two digits of q sum to k (two integer counters added, compared
  with a third, the truth value converted to a float). Its matrix product at (r, k) is therefore the sum over q of
  product q times that 0/1 entry — the convolution at k, by `masked_sum_eq_digitConv`. The row total from zero, plus ε,
  and the quotient are then the same operations as in `share`.
-/
import proofs.«112194_j52192442581033_2_alg».proof.Proof.Gen.ReferenceIdeal.Read
import proofs.«112194_j52192442581033_2_alg».proof.Proof.DigitSumSpec

noncomputable section

namespace Cert.ReferenceIdeal.RefValue

open Cert.ReferenceIdeal Cert.ReferenceIdeal.Gen Cert.ReferenceIdeal.Read Idealize.ShloMosaic Idealize.ShloMosaic.ValueIdx
  Cert.DigitSum

/-- Two small counters added and compared with a third, as 32-bit words, the answer converted to a float:
    1 when x + y = k, else 0 (no wrap-around below 2³²). -/
theorem mask_value (x y k : ℕ) (hx : x < 10) (hy : y < 10) (hk : k < 19) :
    (FloatOps.uitofp (F := Ideal) .f32 (IntOp.cmpi .eq (IntOp.addi (BitVec.ofNat 32 x) (BitVec.ofNat 32 y)) (BitVec.ofNat 32 k)) : EReal)
      = if x + y = k then (1 : EReal) else 0 := by
  show (((IntOp.cmpi .eq (IntOp.addi (BitVec.ofNat 32 x) (BitVec.ofNat 32 y)) (BitVec.ofNat 32 k)).toNat : ℝ) : EReal) = _
  have hadd : IntOp.addi (BitVec.ofNat 32 x) (BitVec.ofNat 32 y) = BitVec.ofNat 32 (x + y) := by
    unfold IntOp.addi
    exact (BitVec.ofNat_add x y).symm
  rw [hadd]
  unfold IntOp.cmpi
  by_cases e : x + y = k
  · rw [if_pos e, e]
    simp
  · rw [if_neg e]
    have hne : BitVec.ofNat 32 (x + y) ≠ BitVec.ofNat 32 k := fun h => e (by
      have h' := congrArg BitVec.toNat h
      simp only [BitVec.toNat_ofNat] at h'
      omega)
    simp [hne]

/-- Entry (q, k) of the 0/1 matrix. -/
theorem mask_apply (q : Fin 100) (k : Fin 19) :
    val_main_v20 (F := Ideal) (ix2 q k) = if q.val / 10 + q.val % 10 = k.val then (1 : EReal) else 0 := by
  have hq : q.val < 100 := q.isLt
  rw [val_main_v20_apply, val_main_v19_apply, val_main_v17_apply, val_main_v14_apply, val_main_v13_apply,
    val_main_v12_apply, val_main_v10_apply, val_main_v7_apply, val_main_v6_apply, val_main_v11_apply,
    val_main_v9_apply, val_main_v8_apply, val_main_v18_apply, val_main_v16_apply, val_main_v15_apply]
  exact mask_value (q.val / 10) (q.val % 10) k.val (by omega) (by omega) k.isLt

/-- Entry (r, q) of the hundred products: p1[r, q / 10] · p2[r, q % 10]. -/
theorem products_apply (x0 x1 : (⟨S1048576x10, .f32⟩ : BufTy).Contents (Elt Ideal)) (r : Fin 1048576) (q : Fin 100) :
    val_main_v5 (F := Ideal) x0 x1 (ix2 r q)
      = rowOf x0 r ⟨q.val / 10, by have := q.isLt; omega⟩ * rowOf x1 r ⟨q.val % 10, by omega⟩ := by
  have hq : q.val < 100 := q.isLt
  have hr : r.val < 1048576 := r.isLt
  rw [val_main_v5_apply, val_main_v4_apply, val_main_v2_apply, val_main_v0_apply, val_main_v3_apply, val_main_v1_apply]
  refine congrArg₂ (fun u v : EReal => u * v) (congrArg x0 ?_) (congrArg x1 ?_)
  · funext a; apply Fin.ext
    match a with
    | ⟨0, _⟩ => show (r.val * 100 + q.val) / 100 = r.val; omega
    | ⟨1, _⟩ => show (r.val * 100 + q.val) / 10 % 10 = q.val / 10; omega
  · funext a; apply Fin.ext
    match a with
    | ⟨0, _⟩ => show (r.val * 100 + q.val) / 100 = r.val; omega
    | ⟨1, _⟩ => show (r.val * 100 + q.val) % 10 = q.val % 10; omega

/-- The matrix product at (r, k) is the convolution of rows `r` at `k`. -/
theorem weights_apply (x0 x1 : (⟨S1048576x10, .f32⟩ : BufTy).Contents (Elt Ideal)) (r : Fin 1048576) (k : Fin 19) :
    val_main_v21 (F := Ideal) x0 x1 (ix2 r k) = digitConv (rowOf x0 r) (rowOf x1 r) k.val := by
  rw [val_main_v21_apply, ← masked_sum_eq_digitConv]
  refine Finset.sum_congr rfl fun q _ => ?_
  have el : lidx_main_v21 (ix2 r k) q = ix2 r q := by
    funext a; match a with | ⟨0, _⟩ => rfl | ⟨1, _⟩ => rfl
  have er : ridx_main_v21 (ix2 r k) q = ix2 q k := by
    funext a; match a with | ⟨0, _⟩ => rfl | ⟨1, _⟩ => rfl
  rw [el, er]
  exact congrArg₂ (fun u v : EReal => u * v) (products_apply x0 x1 r q) (mask_apply q k)

/-- The reference's last stage, as a whole array, is `G` of the arguments. -/
theorem result_eq (x0 x1 : (⟨S1048576x10, .f32⟩ : BufTy).Contents (Elt Ideal)) :
    val_main_v27 (F := Ideal) x0 x1 = G x0 x1 := by
  funext i
  obtain ⟨r, k, rfl⟩ : ∃ (r : Fin 1048576) (k : Fin 19), i = ix2 r k := ⟨i 0, i 1, eq_ix2 i⟩
  rw [G_ix2, val_main_v27_apply, val_main_v26_apply, val_main_v25_apply, val_main_v23_apply, val_main_v22_apply,
    val_main_v24_apply, val_main_cst_0_apply, val_main_cst_apply]
  unfold share
  refine congrArg₂ Ideal.div (weights_apply x0 x1 r k) ?_
  refine congrArg₂ (fun u v : EReal => u + v) ?_ rfl
  refine (congrArg (fun z : EReal => z + _) Ideal.ofBits_zero_f32).trans ?_
  rw [zero_add]
  refine Finset.sum_congr rfl fun k' _ => ?_
  have e : idx_main_v22 (idx_main_v23 (idx_main_v26 (ix2 r k))) k' = ix2 r k' := by
    funext a; match a with | ⟨0, _⟩ => rfl | ⟨1, _⟩ => rfl
  rw [e]
  exact weights_apply x0 x1 r k'

end Cert.ReferenceIdeal.RefValue

end
-- ==== Proof.lean ====
/-
  Digit-sum distribution: for each of 1048576 batch rows, two lists of ten weights p1[r, ·], p2[r, ·] give the
  nineteen weights  w[r, k] = ∑_{i + j = k} p1[r, i] · p2[r, j]  (0 ≤ k ≤ 18), and the result is
  w[r, k] / (∑_k' w[r, k'] + ε), ε the binary32 number nearest 1e-9.

  The kernel works on 128 blocks of 8192 rows. Inside a block it puts the batch on the lanes, lays p2 between nine
  zeros on either side, and adds ten shifted products; it then sums the nineteen rows, adds ε and divides. The
  reference forms all hundred products p1[r, i] · p2[r, j] and multiplies them with a 0/1 matrix that keeps those
  with i + j = k, then normalises the same way. Over the extended reals both are the function `Cert.DigitSum.G` of
  the two argument arrays: the kernel by reading its stored block entry by entry and tiling the 128 blocks over the
  array, the reference by reading its operations one at a time; the two arrangements of the convolution agree by
  splitting the hundred places into their two digits (`Cert.DigitSum.masked_sum_eq_digitConv`). Only x · 1 = x,
  x · 0 = 0 and the laws of a commutative monoid are used, so the equality holds for all extended reals and the
  finiteness precondition is never opened.

  The three frames are the generated ones (the reference's is its run with the result dropped); the idealisation
  rewrote nothing, so that conjunct is `True`.
-/
import proofs.«112194_j52192442581033_2_alg».proof.Defs
import proofs.«112194_j52192442581033_2_alg».proof.Proof.Gen.Kernel
import proofs.«112194_j52192442581033_2_alg».proof.Proof.Gen.Kernel.Skeleton
import proofs.«112194_j52192442581033_2_alg».proof.Proof.Gen.Kernel.Launch
import proofs.«112194_j52192442581033_2_alg».proof.Proof.Gen.Kernel.Points
import proofs.«112194_j52192442581033_2_alg».proof.Proof.Gen.Kernel.Frame
import proofs.«112194_j52192442581033_2_alg».proof.Proof.Gen.KernelIdeal
import proofs.«112194_j52192442581033_2_alg».proof.Proof.Gen.KernelIdeal.Skeleton
import proofs.«112194_j52192442581033_2_alg».proof.Proof.Gen.KernelIdeal.Launch
import proofs.«112194_j52192442581033_2_alg».proof.Proof.Gen.KernelIdeal.Points
import proofs.«112194_j52192442581033_2_alg».proof.Proof.Gen.KernelIdeal.Frame
import proofs.«112194_j52192442581033_2_alg».proof.Proof.Gen.ReferenceIdeal
import proofs.«112194_j52192442581033_2_alg».proof.Proof.Gen.Pre_finite_inputs
import proofs.«112194_j52192442581033_2_alg».proof.Proof.Gen.KernelIdeal.Value
import proofs.«112194_j52192442581033_2_alg».proof.Proof.Gen.ReferenceIdeal.Run
import proofs.«112194_j52192442581033_2_alg».proof.Proof.Gen.ReferenceIdeal.Read
import proofs.«112194_j52192442581033_2_alg».proof.Proof.KernelArray
import proofs.«112194_j52192442581033_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `G` of the argument arrays; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
